-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x9x32 : Shape := ⟨3, ![16384, 9, 32]⟩
abbrev S9x9x32 : Shape := ⟨3, ![9, 9, 32]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x9x32 : S_.BroadcastsInDim S16384x9x32 (![] : Fin 0 → Fin S16384x9x32.rank)
  reducesTo_S16384x9x32_S_d0_1_2 : S16384x9x32.ReducesTo [0, 1, 2] S_
  h_S_ : 0 < S_.numel
  bcast_S_S9x9x32 : S_.BroadcastsInDim S9x9x32 (![] : Fin 0 → Fin S9x9x32.rank)
  reducesTo_S9x9x32_S_d0_1_2 : S9x9x32.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S128x2 .f32) (main_v50 : FVec F S128x2 .f32) : IVec S_ 1 :=
  let main_v51 : IVec S128x2 1 := cmpf .olt main_v49 main_v50
  let main_c_19 : IVec S_ 1 := constantI S_ 1 1#1
  let main_v52 : IVec S_ 1 := (fun x v => Host.reduce IntOp.andi x v reducesTo_S128x2_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S32 .f32) (main_arg8 : FVec F S32x128 .f32) (main_arg9 : FVec F S128 .f32) (main_arg10 : FVec F S128x2 .f32) (main_arg11 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x2 .f32 := Host.absf main_arg10
  let main_cst_18 : FVec F S_ .f32 := constant S_ .f32 0x7F800000#32
  let main_v50 : FVec F S128x2 .f32 := broadcastInDim S128x2 ![] bcast_S_S128x2 main_cst_18
  fn_part3 (F := F) main_arg11 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S32x128 .f32) (main_arg9 : FVec F S128 .f32) (main_arg10 : FVec F S128x2 .f32) (main_arg11 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x9x32 .f32) (main_arg1 : FVec F S9x9x32 .f32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S32x128 .f32) (main_arg9 : FVec F S128 .f32) (main_arg10 : FVec F S128x2 .f32) (main_arg11 : FVec F S2 .f32) : IVec S_ 1 :=
  let main_v0 : FVec F S16384x9x32 .f32 := Host.absf main_arg0
  let main_cst : FVec F S_ .f32 := constant S_ .f32 0x7F800000#32
  let main_v1 : FVec F S16384x9x32 .f32 := broadcastInDim S16384x9x32 ![] bcast_S_S16384x9x32 main_cst
  let main_v2 : IVec S16384x9x32 1 := cmpf .olt main_v0 main_v1
  let main_c : IVec S_ 1 := constantI S_ 1 1#1
  let main_v3 : IVec S_ 1 := (fun x v => Host.reduce IntOp.andi x v reducesTo_S16384x9x32_S_d0_1_2 h_S_) main_v2 main_c
  let main_v4 : FVec F S9x9x32 .f32 := Host.absf main_arg1
  let main_cst_0 : FVec F S_ .f32 := constant S_ .f32 0x7F800000#32
  let main_v5 : FVec F S9x9x32 .f32 := broadcastInDim S9x9x32 ![] bcast_S_S9x9x32 main_cst_0
  let main_v6 : IVec S9x9x32 1 := cmpf .olt main_v4 main_v5
  let main_c_1 : IVec S_ 1 := constantI S_ 1 1#1
  let main_v7 : IVec S_ 1 := (fun x v => Host.reduce IntOp.andi x v reducesTo_S9x9x32_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S16384x9x32 : Shape := ⟨3, ![16384, 9, 32]⟩
abbrev S9x9x32 : Shape := ⟨3, ![9, 9, 32]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x2 : Shape := ⟨2, ![128, 2]⟩
abbrev S2 : Shape := ⟨1, ![2]⟩
abbrev S16384x2 : Shape := ⟨2, ![16384, 2]⟩
abbrev S128x9x32 : Shape := ⟨3, ![128, 9, 32]⟩
abbrev S1152x32 : Shape := ⟨2, ![1152, 32]⟩
abbrev S1x32 : Shape := ⟨2, ![1, 32]⟩
abbrev S81x32 : Shape := ⟨2, ![81, 32]⟩
abbrev S128x9x1x32 : Shape := ⟨4, ![128, 9, 1, 32]⟩
abbrev S128x1x9x32 : Shape := ⟨4, ![128, 1, 9, 32]⟩
abbrev S128x9x9x32 : Shape := ⟨4, ![128, 9, 9, 32]⟩
abbrev S1x9x9x32 : Shape := ⟨4, ![1, 9, 9, 32]⟩
abbrev S10368x32 : Shape := ⟨2, ![10368, 32]⟩
abbrev S10368x128 : Shape := ⟨2, ![10368, 128]⟩
abbrev S1x128 : Shape := ⟨2, ![1, 128]⟩
abbrev S10368x2 : Shape := ⟨2, ![10368, 2]⟩
abbrev S1x2 : Shape := ⟨2, ![1, 2]⟩
abbrev S128x81x2 : Shape := ⟨3, ![128, 81, 2]⟩

abbrev nBuf : Space → Nat
  | .hbm => 13
  | .vmem => 15
  | .smem => 0
  | _ => 0

abbrev bufTy : (tb : Table) → Fin (tcTables nBuf tb) → BufTy
  | .hbm, ⟨0, _⟩ => ⟨S16384x9x32, .f32⟩
  | .hbm, ⟨1, _⟩ => ⟨S9x9x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S16384x2, .f32⟩
  | .local _ .vmem, ⟨0, _⟩ => ⟨S128x9x32, .f32⟩
  | .local _ .vmem, ⟨1, _⟩ => ⟨S128x9x32, .f32⟩
  | .local _ .vmem, ⟨2, _⟩ => ⟨S9x9x32, .f32⟩
  | .local _ .vmem, ⟨3, _⟩ => ⟨S32x32, .f32⟩
  | .local _ .vmem, ⟨4, _⟩ => ⟨S32, .f32⟩
  | .local _ .vmem, ⟨5, _⟩ => ⟨S32x32, .f32⟩
  | .local _ .vmem, ⟨6, _⟩ => ⟨S32, .f32⟩
  | .local _ .vmem, ⟨7, _⟩ => ⟨S32x32, .f32⟩
  | .local _ .vmem, ⟨8, _⟩ => ⟨S32, .f32⟩
  | .local _ .vmem, ⟨9, _⟩ => ⟨S32x128, .f32⟩
  | .local _ .vmem, ⟨10, _⟩ => ⟨S128, .f32⟩
  | .local _ .vmem, ⟨11, _⟩ => ⟨S128x2, .f32⟩
  | .local _ .vmem, ⟨12, _⟩ => ⟨S2, .f32⟩
  | .local _ .vmem, ⟨13, _⟩ => ⟨S128x2, .f32⟩
  | .local _ .vmem, ⟨14, _⟩ => ⟨S128x2, .f32⟩
  | _, _ => ⟨S16384x9x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x9x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S128x9x32_S128x9x32_0_0_0 : ∀ a, (![0, 0, 0] : Fin 3 → Nat) a + S128x9x32.size a ≤ S128x9x32.size a
  h_S128x9x32 : 0 < S128x9x32.numel
  shapeCasts_S128x9x32_S1152x32 : S128x9x32.ShapeCasts S1152x32
  inb_S32x32_S32x32_0_0 : ∀ a, (![0, 0] : Fin 2 → Nat) a + S32x32.size a ≤ S32x32.size a
  h_S32x32 : 0 < S32x32.numel
  inb_S32_S32_0 : ∀ a, (![0] : Fin 1 → Nat) a + S32.size a ≤ S32.size a
  h_S32 : 0 < S32.numel
  shapeCasts_S32_S1x32 : S32.ShapeCasts S1x32
  broadcasts_S1x32_S1152x32 : S1x32.Broadcasts S1152x32
  shapeCasts_S1152x32_S128x9x32 : S1152x32.ShapeCasts S128x9x32
  inb_S9x9x32_S9x9x32_0_0_0 : ∀ a, (![0, 0, 0] : Fin 3 → Nat) a + S9x9x32.size a ≤ S9x9x32.size a
  h_S9x9x32 : 0 < S9x9x32.numel
  shapeCasts_S9x9x32_S81x32 : S9x9x32.ShapeCasts S81x32
  broadcasts_S1x32_S81x32 : S1x32.Broadcasts S81x32
  shapeCasts_S81x32_S9x9x32 : S81x32.ShapeCasts S9x9x32
  shapeCasts_S128x9x32_S128x9x1x32 : S128x9x32.ShapeCasts S128x9x1x32
  shapeCasts_S128x9x32_S128x1x9x32 : S128x9x32.ShapeCasts S128x1x9x32
  broadcasts_S128x9x1x32_S128x9x9x32 : S128x9x1x32.Broadcasts S128x9x9x32
  broadcasts_S128x1x9x32_S128x9x9x32 : S128x1x9x32.Broadcasts S128x9x9x32
  shapeCasts_S9x9x32_S1x9x9x32 : S9x9x32.ShapeCasts S1x9x9x32
  broadcasts_S1x9x9x32_S128x9x9x32 : S1x9x9x32.Broadcasts S128x9x9x32
  shapeCasts_S128x9x9x32_S10368x32 : S128x9x9x32.ShapeCasts S10368x32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S10368x128 : S1x128.Broadcasts S10368x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S10368x2 : S1x2.Broadcasts S10368x2
  shapeCasts_S10368x2_S128x81x2 : S10368x2.ShapeCasts S128x81x2
  reduces_S128x81x2_S128x2 : S128x81x2.Reduces [1] S128x2
  dot_S1152x32_S32x32_S1152x32_1_0_0_1_n_n_wf : DotDims.WF S1152x32 S32x32 S1152x32 [1] [0] [0] [1] [] []
  dot_S81x32_S32x32_S81x32_1_0_0_1_n_n_wf : DotDims.WF S81x32 S32x32 S81x32 [1] [0] [0] [1] [] []
  dot_S10368x32_S32x128_S10368x128_1_0_0_1_n_n_wf : DotDims.WF S10368x32 S32x128 S10368x128 [1] [0] [0] [1] [] []
  dot_S10368x128_S128x2_S10368x2_1_0_0_1_n_n_wf : DotDims.WF S10368x128 S128x2 S10368x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x9x32.size a ≤ S16384x9x32.size a
  hwx0_0 : ∀ i : grid0.Coords, EltTy.bits .f32 = 32 ∨ (Rect.block (s := S16384x9x32) S128x9x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x9x32.size a ≤ S9x9x32.size a
  hwx0_1 : ∀ i : grid0.Coords, EltTy.bits .f32 = 32 ∨ (Rect.block (s := S9x9x32) S9x9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x2.size a ≤ S128x2.size a
  hwx0_10 : ∀ i : grid0.Coords, EltTy.bits .f32 = 32 ∨ (Rect.block (s := S128x2) S128x2.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2.size a ≤ S2.size a
  hwx0_11 : ∀ i : grid0.Coords, EltTy.bits .f32 = 32 ∨ (Rect.block (s := S2) S2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2.size a ≤ S16384x2.size a
  hwx0_12 : ∀ i : grid0.Coords, EltTy.bits .f32 = 32 ∨ (Rect.block (s := S16384x2) S128x2.size (cc0_transform_12 i) (hinb0_12 i)).WholeWords (EltTy.packing .f32)

variable [Facts₀]

def dot_S1152x32_S32x32_S1152x32_1_0_0_1_n_n : DotDims S1152x32 S32x32 S1152x32 where
  lhsContracting := [1]
  rhsContracting := [0]
  lhsNonContracting := [0]
  rhsNonContracting := [1]
  lhsBatch := []
  rhsBatch := []
  wf := dot_S1152x32_S32x32_S1152x32_1_0_0_1_n_n_wf
def dot_S81x32_S32x32_S81x32_1_0_0_1_n_n : DotDims S81x32 S32x32 S81x32 where
  lhsContracting := [1]
  rhsContracting := [0]
  lhsNonContracting := [0]
  rhsNonContracting := [1]
  lhsBatch := []
  rhsBatch := []
  wf := dot_S81x32_S32x32_S81x32_1_0_0_1_n_n_wf
def dot_S10368x32_S32x128_S10368x128_1_0_0_1_n_n : DotDims S10368x32 S32x128 S10368x128 where
  lhsContracting := [1]
  rhsContracting := [0]
  lhsNonContracting := [0]
  rhsNonContracting := [1]
  lhsBatch := []
  rhsBatch := []
  wf := dot_S10368x32_S32x128_S10368x128_1_0_0_1_n_n_wf
def dot_S10368x128_S128x2_S10368x2_1_0_0_1_n_n : DotDims S10368x128 S128x2 S10368x2 where
  lhsContracting := [1]
  rhsContracting := [0]
  lhsNonContracting := [0]
  rhsNonContracting := [1]
  lhsBatch := []
  rhsBatch := []
  wf := dot_S10368x128_S128x2_S10368x2_1_0_0_1_n_n_wf

abbrev win0_0 : Pipeline.Window sig grid0 :=
  Pipeline.Window.ofSpec (Memref.whole main_arg0) S128x9x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S128x2.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x9x32 : Shape := ⟨3, ![16384, 9, 32]⟩
abbrev S9x9x32 : Shape := ⟨3, ![9, 9, 32]⟩
abbrev S32x32 : Shape := ⟨2, ![32, 32]⟩
abbrev S32 : Shape := ⟨1, ![32]⟩
abbrev S32x128 : Shape := ⟨2, ![32, 128]⟩
abbrev S128 : Shape := ⟨1, ![128]⟩
abbrev S128x2 : Shape := ⟨2, ![128, 2]⟩
abbrev S2 : Shape := ⟨1, ![2]⟩
abbrev S1x1x32 : Shape := ⟨3, ![1, 1, 32]⟩
abbrev S1x9x9x32 : Shape := ⟨4, ![1, 9, 9, 32]⟩
abbrev S16384x9x1x32 : Shape := ⟨4, ![16384, 9, 1, 32]⟩
abbrev S16384x1x9x32 : Shape := ⟨4, ![16384, 1, 9, 32]⟩
abbrev S16384x9x9x32 : Shape := ⟨4, ![16384, 9, 9, 32]⟩
abbrev S16384x9x9x128 : Shape := ⟨4, ![16384, 9, 9, 128]⟩
abbrev S1x1x1x128 : Shape := ⟨4, ![1, 1, 1, 128]⟩
abbrev S_ : Shape := ⟨0, ![]⟩
abbrev S16384x9x9x2 : Shape := ⟨4, ![16384, 9, 9, 2]⟩
abbrev S1x1x1x2 : Shape := ⟨4, ![1, 1, 1, 2]⟩
abbrev S16384x2 : Shape := ⟨2, ![16384, 2]⟩

abbrev nBuf : Space → Nat
  | .hbm => 45
  | .vmem => 0
  | .smem => 0
  | _ => 0

abbrev bufTy : (tb : Table) → Fin (tcTables nBuf tb) → BufTy
  | .hbm, ⟨0, _⟩ => ⟨S16384x9x32, .f32⟩
  | .hbm, ⟨1, _⟩ => ⟨S9x9x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S9x9x32, .f32⟩
  | .hbm, ⟨13, _⟩ => ⟨S1x1x32, .f32⟩
  | .hbm, ⟨14, _⟩ => ⟨S9x9x32, .f32⟩
  | .hbm, ⟨15, _⟩ => ⟨S9x9x32, .f32⟩
  | .hbm, ⟨16, _⟩ => ⟨S1x9x9x32, .f32⟩
  | .hbm, ⟨17, _⟩ => ⟨S16384x9x32, .f32⟩
  | .hbm, ⟨18, _⟩ => ⟨S1x1x32, .f32⟩
  | .hbm, ⟨19, _⟩ => ⟨S16384x9x32, .f32⟩
  | .hbm, ⟨20, _⟩ => ⟨S16384x9x32, .f32⟩
  | .hbm, ⟨21, _⟩ => ⟨S16384x9x1x32, .f32⟩
  | .hbm, ⟨22, _⟩ => ⟨S16384x9x32, .f32⟩
  | .hbm, ⟨23, _⟩ => ⟨S1x1x32, .f32⟩
  | .hbm, ⟨24, _⟩ => ⟨S16384x9x32, .f32⟩
  | .hbm, ⟨25, _⟩ => ⟨S16384x9x32, .f32⟩
  | .hbm, ⟨26, _⟩ => ⟨S16384x1x9x32, .f32⟩
  | .hbm, ⟨27, _⟩ => ⟨S16384x9x9x32, .f32⟩
  | .hbm, ⟨28, _⟩ => ⟨S16384x9x9x32, .f32⟩
  | .hbm, ⟨29, _⟩ => ⟨S16384x9x9x32, .f32⟩
  | .hbm, ⟨30, _⟩ => ⟨S16384x9x9x32, .f32⟩
  | .hbm, ⟨31, _⟩ => ⟨S16384x9x9x32, .f32⟩
  | .hbm, ⟨32, _⟩ => ⟨S16384x9x9x128, .f32⟩
  | .hbm, ⟨33, _⟩ => ⟨S1x1x1x128, .f32⟩
  | .hbm, ⟨34, _⟩ => ⟨S16384x9x9x128, .f32⟩
  | .hbm, ⟨35, _⟩ => ⟨S16384x9x9x128, .f32⟩
  | .hbm, ⟨36, _⟩ => ⟨S_, .f32⟩
  | .hbm, ⟨37, _⟩ => ⟨S16384x9x9x128, .f32⟩
  | .hbm, ⟨38, _⟩ => ⟨S16384x9x9x128, .f32⟩
  | .hbm, ⟨39, _⟩ => ⟨S16384x9x9x2, .f32⟩
  | .hbm, ⟨40, _⟩ => ⟨S1x1x1x2, .f32⟩
  | .hbm, ⟨41, _⟩ => ⟨S16384x9x9x2, .f32⟩
  | .hbm, ⟨42, _⟩ => ⟨S16384x9x9x2, .f32⟩
  | .hbm, ⟨43, _⟩ => ⟨S_, .f32⟩
  | .hbm, ⟨44, _⟩ => ⟨S16384x2, .f32⟩
  | _, _ => ⟨S16384x9x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S9x9x32_0_1_2 : S1x1x32.BroadcastsInDim S9x9x32 (![0, 1, 2] : Fin 3 → Fin S9x9x32.rank)
  bcast_S9x9x32_S1x9x9x32_1_2_3 : S9x9x32.BroadcastsInDim S1x9x9x32 (![1, 2, 3] : Fin 3 → Fin S1x9x9x32.rank)
  bcast_S1x1x32_S16384x9x32_0_1_2 : S1x1x32.BroadcastsInDim S16384x9x32 (![0, 1, 2] : Fin 3 → Fin S16384x9x32.rank)
  bcast_S16384x9x32_S16384x9x1x32_0_1_3 : S16384x9x32.BroadcastsInDim S16384x9x1x32 (![0, 1, 3] : Fin 3 → Fin S16384x9x1x32.rank)
  bcast_S16384x9x32_S16384x1x9x32_0_2_3 : S16384x9x32.BroadcastsInDim S16384x1x9x32 (![0, 2, 3] : Fin 3 → Fin S16384x1x9x32.rank)
  bcast_S16384x9x1x32_S16384x9x9x32_0_1_2_3 : S16384x9x1x32.BroadcastsInDim S16384x9x9x32 (![0, 1, 2, 3] : Fin 4 → Fin S16384x9x9x32.rank)
  bcast_S16384x1x9x32_S16384x9x9x32_0_1_2_3 : S16384x1x9x32.BroadcastsInDim S16384x9x9x32 (![0, 1, 2, 3] : Fin 4 → Fin S16384x9x9x32.rank)
  bcast_S1x9x9x32_S16384x9x9x32_0_1_2_3 : S1x9x9x32.BroadcastsInDim S16384x9x9x32 (![0, 1, 2, 3] : Fin 4 → Fin S16384x9x9x32.rank)
  bcast_S128_S1x1x1x128_3 : S128.BroadcastsInDim S1x1x1x128 (![3] : Fin 1 → Fin S1x1x1x128.rank)
  bcast_S1x1x1x128_S16384x9x9x128_0_1_2_3 : S1x1x1x128.BroadcastsInDim S16384x9x9x128 (![0, 1, 2, 3] : Fin 4 → Fin S16384x9x9x128.rank)
  bcast_S_S16384x9x9x128 : S_.BroadcastsInDim S16384x9x9x128 (![] : Fin 0 → Fin S16384x9x9x128.rank)
  bcast_S2_S1x1x1x2_3 : S2.BroadcastsInDim S1x1x1x2 (![3] : Fin 1 → Fin S1x1x1x2.rank)
  bcast_S1x1x1x2_S16384x9x9x2_0_1_2_3 : S1x1x1x2.BroadcastsInDim S16384x9x9x2 (![0, 1, 2, 3] : Fin 4 → Fin S16384x9x9x2.rank)
  reducesTo_S16384x9x9x2_S16384x2_d1_2 : S16384x9x9x2.ReducesTo [1, 2] S16384x2
  h_S_ : 0 < S_.numel
  dot_S9x9x32_S32x32_S9x9x32_2_0_01_1_n_n_wf : DotDims.WF S9x9x32 S32x32 S9x9x32 [2] [0] [0, 1] [1] [] []
  dot_S16384x9x32_S32x32_S16384x9x32_2_0_01_1_n_n_wf : DotDims.WF S16384x9x32 S32x32 S16384x9x32 [2] [0] [0, 1] [1] [] []
  dot_S16384x9x9x32_S32x128_S16384x9x9x128_3_0_012_1_n_n_wf : DotDims.WF S16384x9x9x32 S32x128 S16384x9x9x128 [3] [0] [0, 1, 2] [1] [] []
  dot_S16384x9x9x128_S128x2_S16384x9x9x2_3_0_012_1_n_n_wf : DotDims.WF S16384x9x9x128 S128x2 S16384x9x9x2 [3] [0] [0, 1, 2] [1] [] []

variable [Facts₀]

def dot_S9x9x32_S32x32_S9x9x32_2_0_01_1_n_n : DotDims S9x9x32 S32x32 S9x9x32 where
  lhsContracting := [2]
  rhsContracting := [0]
  lhsNonContracting := [0, 1]
  rhsNonContracting := [1]
  lhsBatch := []
  rhsBatch := []
  wf := dot_S9x9x32_S32x32_S9x9x32_2_0_01_1_n_n_wf
def dot_S16384x9x32_S32x32_S16384x9x32_2_0_01_1_n_n : DotDims S16384x9x32 S32x32 S16384x9x32 where
  lhsContracting := [2]
  rhsContracting := [0]
  lhsNonContracting := [0, 1]
  rhsNonContracting := [1]
  lhsBatch := []
  rhsBatch := []
  wf := dot_S16384x9x32_S32x32_S16384x9x32_2_0_01_1_n_n_wf
def dot_S16384x9x9x32_S32x128_S16384x9x9x128_3_0_012_1_n_n : DotDims S16384x9x9x32 S32x128 S16384x9x9x128 where
  lhsContracting := [3]
  rhsContracting := [0]
  lhsNonContracting := [0, 1, 2]
  rhsNonContracting := [1]
  lhsBatch := []
  rhsBatch := []
  wf := dot_S16384x9x9x32_S32x128_S16384x9x9x128_3_0_012_1_n_n_wf
def dot_S16384x9x9x128_S128x2_S16384x9x9x2_3_0_012_1_n_n : DotDims S16384x9x9x128 S128x2 S16384x9x9x2 where
  lhsContracting := [3]
  rhsContracting := [0]
  lhsNonContracting := [0, 1, 2]
  rhsNonContracting := [1]
  lhsBatch := []
  rhsBatch := []
  wf := dot_S16384x9x9x128_S128x2_S16384x9x9x2_3_0_012_1_n_n_wf

class Facts : Prop extends Facts₀ where

variable [Facts]
-- ==== Proof.Spec.lean ====
/-
  The function both programs compute, one batch row at a time.

  A batch row is a `9 × 32` array `s`. Three affine maps `v ↦ v·W + b` give `x i = s i · Wi + bi`, `y j = s j · Wj + bj`
  and `r i j = relpos i j · Wr + br` (32 entries each); every ordered pair `(i, j)` of the 9 positions gets the outer sum
  `z i j = x i + y j + r i j`, a hidden layer `h i j = max (z i j · W1 + b1) 0` (128 entries) and an output
  `p i j = h i j · W2 + b2` (2 entries); the row's result is the sum of `p i j` over all 81 pairs. The result array
  `[16384, 2]` holds that of each of the 16384 rows. Everything is over the extended reals, and every sum is a plain
  finite sum: no law beyond reordering finite sums is ever needed between the two programs, so finiteness of the inputs
  is not used.
-/
import Idealize.ShloMosaic.PureOps.Ideal
import Idealize.ShloMosaic.Lib.ValueIdx

noncomputable section

namespace Cert.PairMlp

open Idealize.ShloMosaic Idealize.ShloMosaic.ValueIdx

abbrev Sh1 (a : Nat) : Shape := ⟨1, ![a]⟩
abbrev Sh2 (a b : Nat) : Shape := ⟨2, ![a, b]⟩
abbrev Sh3 (a b c : Nat) : Shape := ⟨3, ![a, b, c]⟩
abbrev Sh4 (a b c d : Nat) : Shape := ⟨4, ![a, b, c, d]⟩

abbrev Arr1 (a : Nat) : Type := (Sh1 a).Idx → EReal
abbrev Arr2 (a b : Nat) : Type := (Sh2 a b).Idx → EReal
abbrev Arr3 (a b c : Nat) : Type := (Sh3 a b c).Idx → EReal

/-- The parameter arrays: the relative-position table and the five affine maps' matrices and bias vectors. -/
structure Weights where
  relpos : Arr3 9 9 32
  Wi : Arr2 32 32
  bi : Arr1 32
  Wj : Arr2 32 32
  bj : Arr1 32
  Wr : Arr2 32 32
  br : Arr1 32
  W1 : Arr2 32 128
  b1 : Arr1 128
  W2 : Arr2 128 2
  b2 : Arr1 2

/-- Entry `e` of `v · W + b`. -/
def affine {n k : Nat} (W : Arr2 n k) (b : Arr1 k) (v : Fin n → EReal) (e : Fin k) : EReal :=
  ∑ d : Fin n, v d * W (ix2 d e) + b (ix1 e)

/-- The outer sum `x i + y j + r i j` at the pair `(i, j)`, entry `e`. -/
def outer (w : Weights) (s : Fin 9 → Fin 32 → EReal) (i j : Fin 9) (e : Fin 32) : EReal :=
  affine w.Wi w.bi (s i) e + affine w.Wj w.bj (s j) e + affine w.Wr w.br (fun d => w.relpos (ix3 i j d)) e

/-- The hidden layer at the pair `(i, j)`: the positive part of `z i j · W1 + b1`. -/
def hidden (w : Weights) (s : Fin 9 → Fin 32 → EReal) (i j : Fin 9) (c : Fin 128) : EReal :=
  max (affine w.W1 w.b1 (outer w s i j) c) (Ideal.ofBits .f32 0x00000000#32)

/-- The pair's output `h i j · W2 + b2`. -/
def pairOut (w : Weights) (s : Fin 9 → Fin 32 → EReal) (i j : Fin 9) (o : Fin 2) : EReal :=
  affine w.W2 w.b2 (hidden w s i j) o

/-- A row's result: the sum of the outputs of its 81 pairs. -/
def rowOut (w : Weights) (s : Fin 9 → Fin 32 → EReal) (o : Fin 2) : EReal :=
  ∑ i : Fin 9, ∑ j : Fin 9, pairOut w s i j o

/-- Row `b` of a batch `[B, 9, 32]`. -/
def rowOf {B : Nat} (seq : Arr3 B 9 32) (b : Fin B) : Fin 9 → Fin 32 → EReal := fun i d => seq (ix3 b i d)

/-- The result array: entry `(b, o)` is row `b`'s result. -/
def result (seq : Arr3 16384 9 32) (w : Weights) : Arr2 16384 2 :=
  fun j => rowOut w (rowOf seq (j 0)) (j 1)

theorem result_apply (seq : Arr3 16384 9 32) (w : Weights) (b : Fin 16384) (o : Fin 2) :
    result seq w (ix2 b o) = rowOut w (rowOf seq b) o := rfl

end Cert.PairMlp

end
-- ==== Proof.KernelLayout.lean ====
/-
  How the kernel body re-lays its arrays, read at an index.

  The body flattens a block `[128, 9, 32]` of batch rows to `[1152, 32]` (row `p·9 + i` is position `i` of batch row
  `p`), the table `[9, 9, 32]` to `[81, 32]` (row `i·9 + j` is the pair `(i, j)`), and the outer sum `[128, 9, 9, 32]`
  to `[10368, 32]` (row `(p·9 + i)·9 + j`); it inserts a unit axis and repeats along it to build the outer sum; and it
  un-flattens `[10368, 2]` to `[128, 81, 2]` and sums over the middle axis. Each of these is one entry of the operand
  at an index named here by its coordinates; a reshape keeps the row-major position.
-/
import Idealize.ShloMosaic.PureOps.Ideal.Laws
import Idealize.ShloMosaic.Lib.ValueIdx
import Idealize.ShloMosaic.Lib.Pipeline.Value
import proofs.«151704_j7069516169782_1_alg».proof.Proof.Spec

noncomputable section

namespace Cert.PairMlp

open Idealize.ShloMosaic Idealize.ShloMosaic.ValueIdx

/-- Row `p·9 + i` of the flattened block: position `i` of batch row `p`. -/
def row2 (p : Fin 128) (i : Fin 9) : Fin 1152 := ⟨p.val * 9 + i.val, by have := p.isLt; have := i.isLt; omega⟩
/-- Row `i·9 + j` of the flattened table: the pair `(i, j)`. -/
def pair (i j : Fin 9) : Fin 81 := ⟨i.val * 9 + j.val, by have := i.isLt; have := j.isLt; omega⟩
/-- Row `(p·9 + i)·9 + j` of the flattened outer sum: the pair `(i, j)` of batch row `p`. -/
def row3 (p : Fin 128) (i j : Fin 9) : Fin 10368 :=
  ⟨(p.val * 9 + i.val) * 9 + j.val, by have := p.isLt; have := i.isLt; have := j.isLt; omega⟩
/-- Row `p·81 + k` of `[10368, …]`: entry `k` of the 81 of batch row `p`. -/
def row81 (p : Fin 128) (k : Fin 81) : Fin 10368 := ⟨p.val * 81 + k.val, by have := p.isLt; have := k.isLt; omega⟩

theorem row81_pair (p : Fin 128) (i j : Fin 9) : row81 p (pair i j) = row3 p i j := by
  apply Fin.ext
  show p.val * 81 + (i.val * 9 + j.val) = (p.val * 9 + i.val) * 9 + j.val
  omega

variable {α : Type}

/-! ## Flattening and un-flattening -/

theorem flat_rows (x : (Sh3 128 9 32).Idx → α) (h : (Sh3 128 9 32).ShapeCasts (Sh2 1152 32)) (p : Fin 128) (i : Fin 9)
    (d : Fin 32) : shapeCast (Sh2 1152 32) x h (ix2 (row2 p i) d) = x (ix3 p i d) := by
  refine shapeCast_apply x h _ _ ?_
  rw [Shape.rowMajor_val_three, Shape.rowMajor_val_two]
  show (p.val * 9 + i.val) * 32 + d.val = (p.val * 9 + i.val) * 32 + d.val
  rfl

theorem unflat_rows (x : (Sh2 1152 32).Idx → α) (h : (Sh2 1152 32).ShapeCasts (Sh3 128 9 32)) (p : Fin 128) (i : Fin 9)
    (e : Fin 32) : shapeCast (Sh3 128 9 32) x h (ix3 p i e) = x (ix2 (row2 p i) e) := by
  refine shapeCast_apply x h _ _ ?_
  rw [Shape.rowMajor_val_three, Shape.rowMajor_val_two]
  show (p.val * 9 + i.val) * 32 + e.val = (p.val * 9 + i.val) * 32 + e.val
  rfl

theorem flat_pairs (x : (Sh3 9 9 32).Idx → α) (h : (Sh3 9 9 32).ShapeCasts (Sh2 81 32)) (i j : Fin 9) (d : Fin 32) :
    shapeCast (Sh2 81 32) x h (ix2 (pair i j) d) = x (ix3 i j d) := by
  refine shapeCast_apply x h _ _ ?_
  rw [Shape.rowMajor_val_three, Shape.rowMajor_val_two]
  show (i.val * 9 + j.val) * 32 + d.val = (i.val * 9 + j.val) * 32 + d.val
  rfl

theorem unflat_pairs (x : (Sh2 81 32).Idx → α) (h : (Sh2 81 32).ShapeCasts (Sh3 9 9 32)) (i j : Fin 9) (e : Fin 32) :
    shapeCast (Sh3 9 9 32) x h (ix3 i j e) = x (ix2 (pair i j) e) := by
  refine shapeCast_apply x h _ _ ?_
  rw [Shape.rowMajor_val_three, Shape.rowMajor_val_two]
  show (i.val * 9 + j.val) * 32 + e.val = (i.val * 9 + j.val) * 32 + e.val
  rfl

theorem flat_outer (x : (Sh4 128 9 9 32).Idx → α) (h : (Sh4 128 9 9 32).ShapeCasts (Sh2 10368 32)) (p : Fin 128)
    (i j : Fin 9) (e : Fin 32) : shapeCast (Sh2 10368 32) x h (ix2 (row3 p i j) e) = x (ix4 p i j e) := by
  refine shapeCast_apply x h _ _ ?_
  rw [Shape.rowMajor_val_four, Shape.rowMajor_val_two]
  show ((p.val * 9 + i.val) * 9 + j.val) * 32 + e.val = ((p.val * 9 + i.val) * 9 + j.val) * 32 + e.val
  rfl

theorem unflat_out (x : (Sh2 10368 2).Idx → α) (h : (Sh2 10368 2).ShapeCasts (Sh3 128 81 2)) (p : Fin 128) (k : Fin 81)
    (o : Fin 2) : shapeCast (Sh3 128 81 2) x h (ix3 p k o) = x (ix2 (row81 p k) o) := by
  refine shapeCast_apply x h _ _ ?_
  rw [Shape.rowMajor_val_three, Shape.rowMajor_val_two]
  show (p.val * 81 + k.val) * 2 + o.val = (p.val * 81 + k.val) * 2 + o.val
  rfl

/-! ## The three summands of the outer sum: a unit axis inserted, then repeated along it -/

/-- `x[:, :, None, :]` repeated along the new axis: at `(p, i, j, e)` the entry `(p, i, e)`. -/
theorem along_j (x : (Sh3 128 9 32).Idx → α) (h1 : (Sh3 128 9 32).ShapeCasts (Sh4 128 9 1 32))
    (h2 : (Sh4 128 9 1 32).Broadcasts (Sh4 128 9 9 32)) (p : Fin 128) (i j : Fin 9) (e : Fin 32) :
    broadcastTo (Sh4 128 9 9 32) (shapeCast (Sh4 128 9 1 32) x h1) h2 (ix4 p i j e) = x (ix3 p i e) := by
  refine (broadcastTo_apply _ h2 (ix4 p i j e) (ix4 p i (0 : Fin 1) e) fun a => ?_).trans
    (shapeCast_apply x h1 (ix4 p i (0 : Fin 1) e) (ix3 p i e) ?_)
  · match a with
    | ⟨0, _⟩ => show p.val = if (128 : Nat) = 1 then 0 else p.val; rw [if_neg (by decide)]
    | ⟨1, _⟩ => show i.val = if (9 : Nat) = 1 then 0 else i.val; rw [if_neg (by decide)]
    | ⟨2, _⟩ => show 0 = if (1 : Nat) = 1 then 0 else j.val; rw [if_pos rfl]
    | ⟨3, _⟩ => show e.val = if (32 : Nat) = 1 then 0 else e.val; rw [if_neg (by decide)]
  · rw [Shape.rowMajor_val_three, Shape.rowMajor_val_four]
    show (p.val * 9 + i.val) * 32 + e.val = ((p.val * 9 + i.val) * 1 + 0) * 32 + e.val
    omega

/-- `y[:, None, :, :]` repeated along the new axis: at `(p, i, j, e)` the entry `(p, j, e)`. -/
theorem along_i (x : (Sh3 128 9 32).Idx → α) (h1 : (Sh3 128 9 32).ShapeCasts (Sh4 128 1 9 32))
    (h2 : (Sh4 128 1 9 32).Broadcasts (Sh4 128 9 9 32)) (p : Fin 128) (i j : Fin 9) (e : Fin 32) :
    broadcastTo (Sh4 128 9 9 32) (shapeCast (Sh4 128 1 9 32) x h1) h2 (ix4 p i j e) = x (ix3 p j e) := by
  refine (broadcastTo_apply _ h2 (ix4 p i j e) (ix4 p (0 : Fin 1) j e) fun a => ?_).trans
    (shapeCast_apply x h1 (ix4 p (0 : Fin 1) j e) (ix3 p j e) ?_)
  · match a with
    | ⟨0, _⟩ => show p.val = if (128 : Nat) = 1 then 0 else p.val; rw [if_neg (by decide)]
    | ⟨1, _⟩ => show 0 = if (1 : Nat) = 1 then 0 else i.val; rw [if_pos rfl]
    | ⟨2, _⟩ => show j.val = if (9 : Nat) = 1 then 0 else j.val; rw [if_neg (by decide)]
    | ⟨3, _⟩ => show e.val = if (32 : Nat) = 1 then 0 else e.val; rw [if_neg (by decide)]
  · rw [Shape.rowMajor_val_three, Shape.rowMajor_val_four]
    show (p.val * 9 + j.val) * 32 + e.val = ((p.val * 1 + 0) * 9 + j.val) * 32 + e.val
    omega

/-- `r[None, :, :, :]` repeated over the batch rows: at `(p, i, j, e)` the entry `(i, j, e)`. -/
theorem along_p (x : (Sh3 9 9 32).Idx → α) (h1 : (Sh3 9 9 32).ShapeCasts (Sh4 1 9 9 32))
    (h2 : (Sh4 1 9 9 32).Broadcasts (Sh4 128 9 9 32)) (p : Fin 128) (i j : Fin 9) (e : Fin 32) :
    broadcastTo (Sh4 128 9 9 32) (shapeCast (Sh4 1 9 9 32) x h1) h2 (ix4 p i j e) = x (ix3 i j e) := by
  refine (broadcastTo_apply _ h2 (ix4 p i j e) (ix4 (0 : Fin 1) i j e) fun a => ?_).trans
    (shapeCast_apply x h1 (ix4 (0 : Fin 1) i j e) (ix3 i j e) ?_)
  · match a with
    | ⟨0, _⟩ => show 0 = if (1 : Nat) = 1 then 0 else p.val; rw [if_pos rfl]
    | ⟨1, _⟩ => show i.val = if (9 : Nat) = 1 then 0 else i.val; rw [if_neg (by decide)]
    | ⟨2, _⟩ => show j.val = if (9 : Nat) = 1 then 0 else j.val; rw [if_neg (by decide)]
    | ⟨3, _⟩ => show e.val = if (32 : Nat) = 1 then 0 else e.val; rw [if_neg (by decide)]
  · rw [Shape.rowMajor_val_three, Shape.rowMajor_val_four]
    show (i.val * 9 + j.val) * 32 + e.val = ((0 * 9 + i.val) * 9 + j.val) * 32 + e.val
    omega

/-! ## The sum over the 81 pairs of a batch row -/

/-- Summing `[128, 81, 2]` over its middle axis: at `(p, o)` the sum over `k` of the entries `(p, k, o)`. -/
theorem sum_middle (x : FVec Ideal (Sh3 128 81 2) .f32) (h : (Sh3 128 81 2).Reduces [1] (Sh2 128 2))
    (hφ : FKind.Formats .f32) (hacc : (0x00000000#32 : BitVec 32) = FKind.add.neutral .f32 hφ) (p : Fin 128) (o : Fin 2) :
    multiReduction .add [1] (Sh2 128 2) x 0x00000000#32 h hφ hacc (ix2 p o) = ∑ k : Fin 81, x (ix3 p k o) := by
  refine (Ideal.multiReduction_add_single x 0x00000000#32 h hφ hacc (ix2 p o)).trans ?_
  refine Finset.sum_congr rfl fun k _ => congrArg x ?_
  funext a
  match a with
  | ⟨0, _⟩ => exact Fin.ext rfl
  | ⟨1, _⟩ => exact Fin.ext rfl
  | ⟨2, _⟩ => exact Fin.ext rfl

end Cert.PairMlp

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseRow.lean ====
/-
  A dense layer as a kernel body writes it, read at an entry, at the extended reals.

  `jnp.dot(x, W) + b` inside a kernel is a matrix product accumulated into a zero array, plus the bias vector `[N]`
  viewed as the one row `[1, N]` and repeated over the `M` rows. At `(r, e)` the product is the sum over
  `k : Fin K` of `x (r, k) · W (k, e)` and the repeated bias is `b e`, whatever the sizes.
-/
import Idealize.ShloMosaic.PureOps.Ideal.Laws
import Idealize.ShloMosaic.Lib.ValueIdx
import Idealize.ShloMosaic.Lib.Pipeline.Value
import proofs.«151704_j7069516169782_1_alg».proof.Proof.LibDotSum

noncomputable section

namespace Cert.LibDenseRow

open Idealize.ShloMosaic Idealize.ShloMosaic.ValueIdx

/-- A vector `[N]` viewed as the row `[1, N]` and repeated over `M` rows reads, at `(r, e)`, its entry `e`. -/
theorem rowBias_apply {M N : Nat} {α : Type} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (e : Fin N) :
    broadcastTo ⟨2, ![M, N]⟩ (shapeCast ⟨2, ![1, N]⟩ b h1) h2 (ix2 r e) = b (ix1 e) := by
  refine (broadcastTo_apply _ h2 (ix2 r e) (ix2 (0 : Fin 1) e) fun a => ?_).trans
    (shapeCast_apply b h1 (ix2 (0 : Fin 1) e) (ix1 e) ?_)
  · match a with
    | ⟨0, _⟩ => rfl
    | ⟨1, _⟩ =>
      show e.val = if N = 1 then 0 else e.val
      split
      · have := e.isLt; omega
      · rfl
  · rw [Shape.rowMajor_val_one, Shape.rowMajor_val_two]
    show e.val = 0 * N + e.val
    omega

/-- The product of an `M × K` by a `K × N` array accumulated into the zero array, plus the bias `[N]` repeated over the
    rows, at `(r, e)`: the sum over `k` of `x (r, k) · W (k, e)`, plus `b e`. The six hypotheses on the record of
    dimension numbers compute on a given record. -/
theorem dense_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨1, ![N]⟩ .f32)
    (r : Fin M) (e : Fin N) :
    addf (matmul D none x W (constant (F := Ideal) ⟨2, ![M, N]⟩ .f32 0x00000000#32))
        (broadcastTo ⟨2, ![M, N]⟩ (shapeCast ⟨2, ![1, N]⟩ b h1) h2) (ix2 r e)
      = ∑ k : Fin K, x (ix2 r k) * W (ix2 k e) + b (ix1 e) := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [rowBias_apply b h1 h2 r e]
  refine congrArg (· + b (ix1 e)) ?_
  exact (Ideal.matmul_constant_zero_apply D none x W (ix2 r e)).trans
    (Cert.LibDotSum.sum_dot D hr hs hl0 hl1 hr0 hr1 x W r e)

end Cert.LibDenseRow

end
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.KernelRow.lean ====
/-
  What the kernel body stores, entry by entry: each of a block's 128 batch rows gets its row result.

  The body's value is two nested terms. The inner one is, at row `(p·9 + i)·9 + j` and column `c`, the product of the
  outer sum `z i j` of batch row `p` with column `c` of `W1`; the outer one adds `b1`, takes the positive part,
  multiplies by `W2`, adds `b2`, and sums the 81 rows that belong to batch row `p`. Read entry by entry through the
  re-layouts, that is the row result of the block's row `p`; the 81 rows are summed pair by pair.
-/
import Idealize.ShloMosaic.PureOps.Ideal.Laws
import Idealize.ShloMosaic.Lib.ValueIdx
import Idealize.ShloMosaic.Lib.Pipeline.Value
import proofs.«151704_j7069516169782_1_alg».proof.Proof.Gen.KernelIdeal.Skeleton
import proofs.«151704_j7069516169782_1_alg».proof.Proof.Spec
import proofs.«151704_j7069516169782_1_alg».proof.Proof.KernelLayout
import proofs.«151704_j7069516169782_1_alg».proof.Proof.LibDenseRow
import proofs.«151704_j7069516169782_1_alg».proof.Proof.LibDotSum
import proofs.«151704_j7069516169782_1_alg».proof.Proof.LibTileSum

noncomputable section

namespace Cert.PairMlp

open Idealize.ShloMosaic Idealize.ShloMosaic.ValueIdx Cert.KernelIdeal Cert.KernelIdeal.Gen

/-- A sum over the 81 rows of a batch row, taken pair by pair. -/
theorem sum_pairs {M : Type*} [AddCommMonoid M] (f : Fin 81 → M) :
    ∑ k : Fin 81, f k = ∑ i : Fin 9, ∑ j : Fin 9, f (pair i j) :=
  (Cert.LibTileSum.sum_tiles (T := 9) (B := 9) f).trans
    (Finset.sum_congr rfl fun i _ => Finset.sum_congr rfl fun j _ => congrArg f (Fin.ext rfl))

/-- Entry `(p, pair i j, o)` of the un-flattened `[10368, 2]` array is its row `(p·9 + i)·9 + j`. -/
theorem unflat_out_pair {α : Type} (x : (Sh2 10368 2).Idx → α) (h : (Sh2 10368 2).ShapeCasts (Sh3 128 81 2)) (p : Fin 128)
    (i j : Fin 9) (o : Fin 2) : shapeCast (Sh3 128 81 2) x h (ix3 p (pair i j) o) = x (ix2 (row3 p i j) o) :=
  (unflat_out x h p (pair i j) o).trans (congrArg (fun r => x (ix2 r o)) (row81_pair p i j))

/-- The inner term at row `(p·9 + i)·9 + j`, column `c`: the outer sum of the pair `(i, j)` of the block's row `p`
    times column `c` of `W1`. -/
theorem hidden_pre (x0 : FVec Ideal S128x9x32 .f32) (w : Weights) (p : Fin 128) (i j : Fin 9) (c : Fin 128) :
    k0_pay2 (F := Ideal) x0 w.Wi w.bi w.Wj w.bj w.relpos w.Wr w.br w.W1 (ix2 (row3 p i j) c)
      = ∑ e : Fin 32, outer w (rowOf x0 p) i j e * w.W1 (ix2 e c) := by
  unfold k0_pay2
  refine (Ideal.matmul_constant_zero_apply dot_S10368x32_S32x128_S10368x128_1_0_0_1_n_n none _ w.W1
    (ix2 (row3 p i j) c)).trans ?_
  refine (Cert.LibDotSum.sum_dot dot_S10368x32_S32x128_S10368x128_1_0_0_1_n_n rfl rfl (fun _ _ => rfl) (fun _ _ => rfl)
    (fun _ _ => rfl) (fun _ _ => rfl) _ w.W1 (row3 p i j) c).trans ?_
  refine Finset.sum_congr rfl fun e _ => congrArg (· * w.W1 (ix2 e c)) ?_
  refine (flat_outer _ shapeCasts_S128x9x9x32_S10368x32 p i j e).trans ?_
  unfold outer
  refine Cert.LibDotSum.add3 ?_ ?_ ?_
  · refine (along_j _ shapeCasts_S128x9x32_S128x9x1x32 broadcasts_S128x9x1x32_S128x9x9x32 p i j e).trans ?_
    refine (unflat_rows _ shapeCasts_S1152x32_S128x9x32 p i e).trans ?_
    refine (Cert.LibDenseRow.dense_apply dot_S1152x32_S32x32_S1152x32_1_0_0_1_n_n rfl rfl (fun _ _ => rfl)
      (fun _ _ => rfl) (fun _ _ => rfl) (fun _ _ => rfl) shapeCasts_S32_S1x32 broadcasts_S1x32_S1152x32 _ w.Wi w.bi
      (row2 p i) e).trans ?_
    unfold affine
    refine congrArg (· + w.bi (ix1 e)) (Finset.sum_congr rfl fun d _ => congrArg (· * w.Wi (ix2 d e)) ?_)
    exact flat_rows x0 shapeCasts_S128x9x32_S1152x32 p i d
  · refine (along_i _ shapeCasts_S128x9x32_S128x1x9x32 broadcasts_S128x1x9x32_S128x9x9x32 p i j e).trans ?_
    refine (unflat_rows _ shapeCasts_S1152x32_S128x9x32 p j e).trans ?_
    refine (Cert.LibDenseRow.dense_apply dot_S1152x32_S32x32_S1152x32_1_0_0_1_n_n rfl rfl (fun _ _ => rfl)
      (fun _ _ => rfl) (fun _ _ => rfl) (fun _ _ => rfl) shapeCasts_S32_S1x32 broadcasts_S1x32_S1152x32 _ w.Wj w.bj
      (row2 p j) e).trans ?_
    unfold affine
    refine congrArg (· + w.bj (ix1 e)) (Finset.sum_congr rfl fun d _ => congrArg (· * w.Wj (ix2 d e)) ?_)
    exact flat_rows x0 shapeCasts_S128x9x32_S1152x32 p j d
  · refine (along_p _ shapeCasts_S9x9x32_S1x9x9x32 broadcasts_S1x9x9x32_S128x9x9x32 p i j e).trans ?_
    refine (unflat_pairs _ shapeCasts_S81x32_S9x9x32 i j e).trans ?_
    refine (Cert.LibDenseRow.dense_apply dot_S81x32_S32x32_S81x32_1_0_0_1_n_n rfl rfl (fun _ _ => rfl)
      (fun _ _ => rfl) (fun _ _ => rfl) (fun _ _ => rfl) shapeCasts_S32_S1x32 broadcasts_S1x32_S81x32 _ w.Wr w.br
      (pair i j) e).trans ?_
    unfold affine
    refine congrArg (· + w.br (ix1 e)) (Finset.sum_congr rfl fun d _ => congrArg (· * w.Wr (ix2 d e)) ?_)
    exact flat_pairs w.relpos shapeCasts_S9x9x32_S81x32 i j d

/-- What the body stores at `(p, o)`: the row result of the block's row `p`. -/
theorem stored_row (x0 : FVec Ideal S128x9x32 .f32) (w : Weights) (p : Fin 128) (o : Fin 2) :
    k0_pay1 (F := Ideal) (k0_pay2 (F := Ideal) x0 w.Wi w.bi w.Wj w.bj w.relpos w.Wr w.br w.W1) w.b1 w.W2 w.b2 (ix2 p o)
      = rowOut w (rowOf x0 p) o := by
  unfold k0_pay1
  refine (sum_middle _ reduces_S128x81x2_S128x2 (.inl rfl) rfl p o).trans ?_
  refine (sum_pairs _).trans ?_
  unfold rowOut
  refine Finset.sum_congr rfl fun i _ => Finset.sum_congr rfl fun j _ => ?_
  refine (unflat_out_pair _ shapeCasts_S10368x2_S128x81x2 p i j o).trans ?_
  refine (Cert.LibDenseRow.dense_apply dot_S10368x128_S128x2_S10368x2_1_0_0_1_n_n rfl rfl (fun _ _ => rfl)
    (fun _ _ => rfl) (fun _ _ => rfl) (fun _ _ => rfl) shapeCasts_S2_S1x2 broadcasts_S1x2_S10368x2 _ w.W2 w.b2
    (row3 p i j) o).trans ?_
  unfold pairOut affine
  refine congrArg (· + w.b2 (ix1 o)) (Finset.sum_congr rfl fun c _ => congrArg (· * w.W2 (ix2 c o)) ?_)
  unfold hidden affine
  refine congrArg₂ max ?_ rfl
  refine congrArg₂ (· + ·) (hidden_pre x0 w p i j c) ?_
  exact Cert.LibDenseRow.rowBias_apply w.b1 shapeCasts_S128_S1x128 broadcasts_S1x128_S10368x128 (row3 p i j) c

end Cert.PairMlp

end
-- ==== Proof.KernelArray.lean ====
/-
  From blocks to the array: the kernel's result array holds every batch row's row result.

  The grid has 128 points. At point `t` the body sees rows `t·128 … t·128 + 127` of the batch (the first operand's
  block), every other operand whole, and writes rows `t·128 … t·128 + 127` of the result. What it writes at row `p` of
  its block is the row result of the block's row `p`, which is batch row `t·128 + p`; so each point writes a block of
  the one array of row results, and the 128 blocks cover the `16384` rows (row `b` lies in block `b / 128`).
-/
import proofs.«151704_j7069516169782_1_alg».proof.Proof.Gen.KernelIdeal.Value
import proofs.«151704_j7069516169782_1_alg».proof.Proof.Spec
import proofs.«151704_j7069516169782_1_alg».proof.Proof.KernelRow

noncomputable section

namespace Cert.PairMlp

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The parameter arrays as a core finds them in memory. -/
def weightsAt (c : Dev nD) : Weights where
  relpos := m ((c : Thread nD τ).loc main_arg1)
  Wi := m ((c : Thread nD τ).loc main_arg2)
  bi := m ((c : Thread nD τ).loc main_arg3)
  Wj := m ((c : Thread nD τ).loc main_arg4)
  bj := m ((c : Thread nD τ).loc main_arg5)
  Wr := m ((c : Thread nD τ).loc main_arg6)
  br := m ((c : Thread nD τ).loc main_arg7)
  W1 := m ((c : Thread nD τ).loc main_arg8)
  b1 := m ((c : Thread nD τ).loc main_arg9)
  W2 := m ((c : Thread nD τ).loc main_arg10)
  b2 := m ((c : Thread nD τ).loc main_arg11)

/-! ## The blocks of the operands held whole: the block is the array -/

theorem index_zero1 : ∀ t : Fin cfg0.N, win0_1.index t (0 : Fin 3) = 0 ∧ win0_1.index t (1 : Fin 3) = 0 ∧ win0_1.index t (2 : Fin 3) = 0 :=
  (by decide +kernel : ∀ t : Fin grid0.N, _)

theorem whole1 (c : Dev nD) (t : Fin cfg0.N) : iblk m c 1 t = V m c main_arg1 := by
  obtain ⟨h0, h1, h2⟩ := index_zero1 t
  funext y
  show V m c main_arg1 (((cfg0.win 1).blk t).view.emb y) = V m c main_arg1 y
  refine congrArg _ (funext fun a => Fin.ext ?_)
  match a with
  | ⟨0, _⟩ => show win0_1.index t (0 : Fin 3) * 9 + 1 * (y 0).val = (y 0).val; omega
  | ⟨1, _⟩ => show win0_1.index t (1 : Fin 3) * 9 + 1 * (y 1).val = (y 1).val; omega
  | ⟨2, _⟩ => show win0_1.index t (2 : Fin 3) * 32 + 1 * (y 2).val = (y 2).val; omega

theorem index_zero2 : ∀ t : Fin cfg0.N, win0_2.index t (0 : Fin 2) = 0 ∧ win0_2.index t (1 : Fin 2) = 0 :=
  (by decide +kernel : ∀ t : Fin grid0.N, _)

theorem whole2 (c : Dev nD) (t : Fin cfg0.N) : iblk m c 2 t = V m c main_arg2 := by
  obtain ⟨h0, h1⟩ := index_zero2 t
  funext y
  show V m c main_arg2 (((cfg0.win 2).blk t).view.emb y) = V m c main_arg2 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 32 + 1 * (y 1).val = (y 1).val; omega

theorem index_zero3 : ∀ t : Fin cfg0.N, win0_3.index t (0 : Fin 1) = 0 :=
  (by decide +kernel : ∀ t : Fin grid0.N, _)

theorem whole3 (c : Dev nD) (t : Fin cfg0.N) : iblk m c 3 t = V m c main_arg3 := by
  obtain h0 := index_zero3 t
  funext y
  show V m c main_arg3 (((cfg0.win 3).blk t).view.emb y) = V m c main_arg3 y
  refine congrArg _ (funext fun a => Fin.ext ?_)
  match a with
  | ⟨0, _⟩ => show win0_3.index t (0 : Fin 1) * 32 + 1 * (y 0).val = (y 0).val; omega

theorem index_zero4 : ∀ t : Fin cfg0.N, win0_4.index t (0 : Fin 2) = 0 ∧ win0_4.index t (1 : Fin 2) = 0 :=
  (by decide +kernel : ∀ t : Fin grid0.N, _)

theorem whole4 (c : Dev nD) (t : Fin cfg0.N) : iblk m c 4 t = V m c main_arg4 := by
  obtain ⟨h0, h1⟩ := index_zero4 t
  funext y
  show V m c main_arg4 (((cfg0.win 4).blk t).view.emb y) = V m c main_arg4 y
  refine congrArg _ (funext fun a => Fin.ext ?_)
  match a with
  | ⟨0, _⟩ => show win0_4.index t (0 : Fin 2) * 32 + 1 * (y 0).val = (y 0).val; omega
  | ⟨1, _⟩ => show win0_4.index t (1 : Fin 2) * 32 + 1 * (y 1).val = (y 1).val; omega

theorem index_zero5 : ∀ t : Fin cfg0.N, win0_5.index t (0 : Fin 1) = 0 :=
  (by decide +kernel : ∀ t : Fin grid0.N, _)

theorem whole5 (c : Dev nD) (t : Fin cfg0.N) : iblk m c 5 t = V m c main_arg5 := by
  obtain h0 := index_zero5 t
  funext y
  show V m c main_arg5 (((cfg0.win 5).blk t).view.emb y) = V m c main_arg5 y
  refine congrArg _ (funext fun a => Fin.ext ?_)
  match a with
  | ⟨0, _⟩ => show win0_5.index t (0 : Fin 1) * 32 + 1 * (y 0).val = (y 0).val; omega

theorem index_zero6 : ∀ t : Fin cfg0.N, win0_6.index t (0 : Fin 2) = 0 ∧ win0_6.index t (1 : Fin 2) = 0 :=
  (by decide +kernel : ∀ t : Fin grid0.N, _)

theorem whole6 (c : Dev nD) (t : Fin cfg0.N) : iblk m c 6 t = V m c main_arg6 := by
  obtain ⟨h0, h1⟩ := index_zero6 t
  funext y
  show V m c main_arg6 (((cfg0.win 6).blk t).view.emb y) = V m c main_arg6 y
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 32 + 1 * (y 1).val = (y 1).val; omega

theorem index_zero7 : ∀ t : Fin cfg0.N, win0_7.index t (0 : Fin 1) = 0 :=
  (by decide +kernel : ∀ t : Fin grid0.N, _)

theorem whole7 (c : Dev nD) (t : Fin cfg0.N) : iblk m c 7 t = V m c main_arg7 := by
  obtain h0 := index_zero7 t
  funext y
  show V m c main_arg7 (((cfg0.win 7).blk t).view.emb y) = V m c main_arg7 y
  refine congrArg _ (funext fun a => Fin.ext ?_)
  match a with
  | ⟨0, _⟩ => show win0_7.index t (0 : Fin 1) * 32 + 1 * (y 0).val = (y 0).val; omega

theorem index_zero8 : ∀ t : Fin cfg0.N, win0_8.index t (0 : Fin 2) = 0 ∧ win0_8.index t (1 : Fin 2) = 0 :=
  (by decide +kernel : ∀ t : Fin grid0.N, _)

theorem whole8 (c : Dev nD) (t : Fin cfg0.N) : iblk m c 8 t = V m c main_arg8 := by
  obtain ⟨h0, h1⟩ := index_zero8 t
  funext y
  show V m c main_arg8 (((cfg0.win 8).blk t).view.emb y) = V m c main_arg8 y
  refine congrArg _ (funext fun a => Fin.ext ?_)
  match a with
  | ⟨0, _⟩ => show win0_8.index t (0 : Fin 2) * 32 + 1 * (y 0).val = (y 0).val; omega
  | ⟨1, _⟩ => show win0_8.index t (1 : Fin 2) * 128 + 1 * (y 1).val = (y 1).val; omega

theorem index_zero9 : ∀ t : Fin cfg0.N, win0_9.index t (0 : Fin 1) = 0 :=
  (by decide +kernel : ∀ t : Fin grid0.N, _)

theorem whole9 (c : Dev nD) (t : Fin cfg0.N) : iblk m c 9 t = V m c main_arg9 := by
  obtain h0 := index_zero9 t
  funext y
  show V m c main_arg9 (((cfg0.win 9).blk t).view.emb y) = V m c main_arg9 y
  refine congrArg _ (funext fun a => Fin.ext ?_)
  match a with
  | ⟨0, _⟩ => show win0_9.index t (0 : Fin 1) * 128 + 1 * (y 0).val = (y 0).val; omega

theorem index_zero10 : ∀ t : Fin cfg0.N, win0_10.index t (0 : Fin 2) = 0 ∧ win0_10.index t (1 : Fin 2) = 0 :=
  (by decide +kernel : ∀ t : Fin grid0.N, _)

theorem whole10 (c : Dev nD) (t : Fin cfg0.N) : iblk m c 10 t = V m c main_arg10 := by
  obtain ⟨h0, h1⟩ := index_zero10 t
  funext y
  show V m c main_arg10 (((cfg0.win 10).blk t).view.emb y) = V m c main_arg10 y
  refine congrArg _ (funext fun a => Fin.ext ?_)
  match a with
  | ⟨0, _⟩ => show win0_10.index t (0 : Fin 2) * 128 + 1 * (y 0).val = (y 0).val; omega
  | ⟨1, _⟩ => show win0_10.index t (1 : Fin 2) * 2 + 1 * (y 1).val = (y 1).val; omega

theorem index_zero11 : ∀ t : Fin cfg0.N, win0_11.index t (0 : Fin 1) = 0 :=
  (by decide +kernel : ∀ t : Fin grid0.N, _)

theorem whole11 (c : Dev nD) (t : Fin cfg0.N) : iblk m c 11 t = V m c main_arg11 := by
  obtain h0 := index_zero11 t
  funext y
  show V m c main_arg11 (((cfg0.win 11).blk t).view.emb y) = V m c main_arg11 y
  refine congrArg _ (funext fun a => Fin.ext ?_)
  match a with
  | ⟨0, _⟩ => show win0_11.index t (0 : Fin 1) * 2 + 1 * (y 0).val = (y 0).val; omega

/-! ## The batch block and the result block at point `t` -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the batch operand and of the result at point `t`: block `t` along the rows, block `0` along every
    other axis. -/
theorem index_pt : ∀ t : Fin cfg0.N, win0_12.index t (0 : Fin 2) = t.val ∧ win0_12.index t (1 : Fin 2) = 0
    ∧ win0_0.index t (0 : Fin 3) = t.val ∧ win0_0.index t (1 : Fin 3) = 0 ∧ win0_0.index t (2 : Fin 3) = 0 :=
  (by decide +kernel : ∀ t : Fin grid0.N, _)

/-- Row `p` of the batch block at point `t` is batch row `t·128 + p`. -/
theorem batch_block (c : Dev nD) (t : Fin cfg0.N) (p : Fin 128) (i : Fin 9) (d : Fin 32) (b : Fin 16384)
    (hb : b.val = t.val * 128 + p.val) :
    iblk m c 0 t (ix3 p i d) = V m c main_arg0 (ix3 b i d) := by
  obtain ⟨-, -, h0, h1, h2⟩ := index_pt t
  show V m c main_arg0 (((cfg0.win 0).blk t).view.emb (ix3 p i d)) = V m c main_arg0 (ix3 b i d)
  refine congrArg _ (funext fun a => Fin.ext ?_)
  match a with
  | ⟨0, _⟩ => show win0_0.index t (0 : Fin 3) * 128 + 1 * p.val = b.val; omega
  | ⟨1, _⟩ => show win0_0.index t (1 : Fin 3) * 9 + 1 * i.val = i.val; omega
  | ⟨2, _⟩ => show win0_0.index t (2 : Fin 3) * 32 + 1 * d.val = d.val; omega

/-- What the body stores at `(p, o)` from blocks that are the parameter arrays `w` and rows of the batch `seq`:
    entry `q` of the array of row results, when `q` is `(b, o)` and the block's row `p` is batch row `b`. -/
theorem stored_entry (x0 : FVec Ideal S128x9x32 .f32) (x1 : FVec Ideal S9x9x32 .f32) (x2 : FVec Ideal S32x32 .f32)
    (x3 : FVec Ideal S32 .f32) (x4 : FVec Ideal S32x32 .f32) (x5 : FVec Ideal S32 .f32) (x6 : FVec Ideal S32x32 .f32)
    (x7 : FVec Ideal S32 .f32) (x8 : FVec Ideal S32x128 .f32) (x9 : FVec Ideal S128 .f32) (x10 : FVec Ideal S128x2 .f32)
    (x11 : FVec Ideal S2 .f32) (seq : Arr3 16384 9 32) (w : Weights)
    (e1 : x1 = w.relpos) (e2 : x2 = w.Wi) (e3 : x3 = w.bi) (e4 : x4 = w.Wj) (e5 : x5 = w.bj) (e6 : x6 = w.Wr)
    (e7 : x7 = w.br) (e8 : x8 = w.W1) (e9 : x9 = w.b1) (e10 : x10 = w.W2) (e11 : x11 = w.b2)
    (p : Fin 128) (o : Fin 2) (b : Fin 16384) (e0 : ∀ i d, x0 (ix3 p i d) = seq (ix3 b i d))
    (q : (Sh2 16384 2).Idx) (hq0 : (q 0).val = b.val) (hq1 : (q 1).val = o.val) :
    k0_pay1 (F := Ideal) (k0_pay2 (F := Ideal) x0 x2 x3 x4 x5 x1 x6 x7 x8) x9 x10 x11 (ix2 p o) = result seq w q := by
  subst e1 e2 e3 e4 e5 e6 e7 e8 e9 e10 e11
  have hq : q = ix2 b o := by
    funext a
    match a with
    | ⟨0, _⟩ => exact Fin.ext hq0
    | ⟨1, _⟩ => exact Fin.ext hq1
  rw [hq, result_apply]
  refine (stored_row x0 w p o).trans ?_
  refine congrArg (fun s => rowOut w s o) ?_
  funext i d
  exact e0 i d

/-- WHAT POINT `t` WRITES BACK is block `t` of the array of row results. -/
theorem flushed_eq (c : Dev nD) (t : Fin cfg0.N) :
    (dats m 0 c).flushed 12 t
      = ((cfg0.win 12).blk t).view.read (Elt Ideal) (result (m ((c : Thread nD τ).loc main_arg0)) (weightsAt m c)) := by
  rw [Cert.KernelIdeal.Value.flushed12]
  unfold out0_12
  rw [View.canon_unit_zero hz2]
  simp only [View.ld_unit_zero (S := S128x9x32) hz3, View.ld_unit_zero (S := S9x9x32) hz3,
    View.ld_unit_zero (S := S32x32) hz2, View.ld_unit_zero (S := S32) hz1, View.ld_unit_zero (S := S32x128) hz2,
    View.ld_unit_zero (S := S128) hz1, View.ld_unit_zero (S := S128x2) hz2, View.ld_unit_zero (S := S2) hz1]
  obtain ⟨g0, g1, -, -, -⟩ := index_pt t
  have hN : cfg0.N = 128 := N_0
  have ht : t.val < cfg0.N := t.isLt
  funext y
  obtain ⟨p, o, rfl⟩ : ∃ (p : Fin 128) (o : Fin 2), y = ix2 p o := ⟨y 0, y 1, eq_ix2 y⟩
  exact stored_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (m ((c : Thread nD τ).loc main_arg0)) (weightsAt m c)
    (whole1 m c t) (whole2 m c t) (whole3 m c t) (whole4 m c t) (whole5 m c t) (whole6 m c t) (whole7 m c t)
    (whole8 m c t) (whole9 m c t) (whole10 m c t) (whole11 m c t) p o
    ⟨t.val * 128 + p.val, by have := p.isLt; omega⟩ (fun i d => batch_block m c t p i d _ rfl)
    (((cfg0.win 12).blk t).view.emb (ix2 p o))
    (by show win0_12.index t (0 : Fin 2) * 128 + 1 * p.val = t.val * 128 + p.val; omega)
    (by show win0_12.index t (1 : Fin 2) * 2 + 1 * o.val = o.val; omega)

/-- An index of the result array is in point `t`'s block iff each coordinate is in the block's range on its axis. -/
theorem mem_blk (t : Fin cfg0.N) (i : S16384x2.Idx) :
    i ∈ ((cfg0.win 12).blk t).view.set ↔ ∀ a : Fin 2, win0_12.index t a * S128x2.size a ≤ (i a).val
      ∧ (i a).val < win0_12.index t a * S128x2.size a + S128x2.size a := by
  show i ∈ ((View.whole main_v0).slice (win0_12.rect t)).set ↔ _
  rw [View.set_slice_whole, Rect.mem_set_unit]
  exact Iff.rfl

/-- Every entry of the result array is in some point's block: row `b` in block `b / 128`. -/
theorem covered (i : S16384x2.Idx) :
    ∃ t : Fin cfg0.N, (cfg0.win 12).flush t = true ∧ i ∈ ((cfg0.win 12).blk t).view.set := by
  have hN : cfg0.N = 128 := N_0
  have hi0 : (i 0).val < 16384 := (i 0).isLt
  have hi1 : (i 1).val < 2 := (i 1).isLt
  refine ⟨⟨(i 0).val / 128, by omega⟩, flush0_12 _, ?_⟩
  rw [mem_blk]
  obtain ⟨g0, g1, -, -, -⟩ := index_pt ⟨(i 0).val / 128, by omega⟩
  intro a
  match a with
  | ⟨0, _⟩ =>
    show win0_12.index ⟨(i 0).val / 128, _⟩ (0 : Fin 2) * 128 ≤ (i 0).val
      ∧ (i 0).val < win0_12.index ⟨(i 0).val / 128, _⟩ (0 : Fin 2) * 128 + 128
    rw [g0]
    show (i 0).val / 128 * 128 ≤ (i 0).val ∧ (i 0).val < (i 0).val / 128 * 128 + 128
    omega
  | ⟨1, _⟩ =>
    show win0_12.index ⟨(i 0).val / 128, _⟩ (1 : Fin 2) * 2 ≤ (i 1).val
      ∧ (i 1).val < win0_12.index ⟨(i 0).val / 128, _⟩ (1 : Fin 2) * 2 + 2
    rw [g1]
    omega

/-- THE ARRAY after the run: the array of row results of the batch and the parameter arrays in memory. -/
theorem final (c : Dev nD) :
    (dats m 0 c).arrAt 12 cfg0.N = result (m ((c : Thread nD τ).loc main_arg0)) (weightsAt m c) :=
  (dats m 0 c).arrAt_eq_of_cover 12 _ (fun t _ => flushed_eq m c t) covered

/-- The kernel's run: the result array ends holding the array of row results, the arguments unchanged. -/
theorem kernel_run : θ_run defs (onTc (τ := τ) (main (F := Ideal))) ⟨m, fun _ => 0, ρ⟩ fun r => ∀ c : Dev nD,
      r.2.mem ((c : Thread nD τ).loc main_v0) = result (m ((c : Thread nD τ).loc main_arg0)) (weightsAt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.PairMlp

end
-- ==== Proof.LibReduceMid4.lean ====
/-
  A host sum over the two MIDDLE axes of a rank-4 array, read at an index, at the extended reals.

  jnp's `sum(axis=(1, 2))` of an array `[n0, n1, n2, n3]` lowers to one `stablehlo.reduce … add` over both axes into
  `[n0, n3]`. At the extended reals its element at `(p, q)` is the initial value plus the sum of the operand's entries
  whose first and last coordinates are `p` and `q`: the double sum over the two reduced coordinates. Also here: a sum
  over all indices of a rank-4 shape as the fourfold sum over its coordinates.
-/
import Idealize.ShloMosaic.PureOps.Ideal
import Idealize.ShloMosaic.PureOps.Ideal.Laws
import Idealize.ShloMosaic.PureOps.Reduce
import Idealize.ShloMosaic.Lib.ValueIdx

noncomputable section

namespace Cert.LibReduceMid4

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Reducing the two middle axes keeps the first and the last coordinate. -/
theorem drop_mid2 {n0 n1 n2 n3 : Nat} (h : (⟨4, ![n0, n1, n2, n3]⟩ : Shape).ReducesTo [1, 2] ⟨2, ![n0, n3]⟩)
    (p : Fin n0) (a : Fin n1) (b : Fin n2) (q : Fin n3) (p' : Fin n0) (q' : Fin n3) :
    h.drop (ix4 p a b q) = ix2 p' q' ↔ p = p' ∧ q = q' := by
  have hv0 : ((h.drop (ix4 p a b q) (0 : Fin 2)) : Nat) = p.val := rfl
  have hv1 : ((h.drop (ix4 p a b q) (1 : Fin 2)) : Nat) = q.val := rfl
  constructor
  · intro e
    constructor
    · apply Fin.ext
      rw [← hv0, e]
    · apply Fin.ext
      rw [← hv1, e]
  · rintro ⟨e0, e1⟩
    subst e0
    subst e1
    funext d
    match d with
    | ⟨0, _⟩ => exact Fin.ext hv0
    | ⟨1, _⟩ => exact Fin.ext hv1

/-- The host's sum over the two MIDDLE axes of a rank-4 array: at `(p, q)` the initial value plus the double sum
    over the two reduced coordinates of the entries `(p, a, b, q)`. (State an index `j` of the result as
    `ix2 (j 0) (j 1)`: `ValueIdx.eq_ix2`.) -/
theorem hostReduceAdd_mid2 {n0 n1 n2 n3 : Nat} (h : (⟨4, ![n0, n1, n2, n3]⟩ : Shape).ReducesTo [1, 2] ⟨2, ![n0, n3]⟩)
    (x : (⟨4, ![n0, n1, n2, n3]⟩ : Shape).Idx → EReal) (init : EReal) (p : Fin n0) (q : Fin n3) :
    Ideal.hostReduceAdd h x init (ix2 p q) = init + ∑ a : Fin n1, ∑ b : Fin n2, x (ix4 p a b q) := by
  unfold Ideal.hostReduceAdd
  congr 1
  rw [Finset.sum_filter, sum_idx4]
  simp only [drop_mid2 h]
  rw [Finset.sum_eq_single p]
  · refine Finset.sum_congr rfl fun a _ => Finset.sum_congr rfl fun b _ => ?_
    rw [Finset.sum_eq_single q]
    · simp
    · intro q' _ hq
      simp [hq]
    · intro hn
      exact absurd (Finset.mem_univ _) hn
  · intro p' _ hp
    simp [hp]
  · intro hn
    exact absurd (Finset.mem_univ _) hn

end Cert.LibReduceMid4

end
-- ==== Proof.RefRow.lean ====
/-
  The reference, entry by entry: its result array holds every batch row's row result.

  The reference computes the three affine maps as contractions over the last axis with the bias repeated over the
  leading axes, forms the outer sum on `[16384, 9, 9, 32]` by repeating along inserted unit axes, applies the hidden
  and the output layer as two more contractions, and sums over the two pair axes starting from zero. Read at an index
  one operation at a time, entry `(b, o)` of the result is the double sum over `(i, j)` of the pair outputs of batch
  row `b`.
-/
import Idealize.ShloMosaic.PureOps.Ideal.Laws
import Idealize.ShloMosaic.Lib.ValueIdx
import proofs.«151704_j7069516169782_1_alg».proof.Proof.Gen.ReferenceIdeal.Read
import proofs.«151704_j7069516169782_1_alg».proof.Proof.Spec
import proofs.«151704_j7069516169782_1_alg».proof.Proof.LibReduceMid4

noncomputable section

namespace Cert.PairMlp

open Idealize.ShloMosaic Idealize.ShloMosaic.ValueIdx Cert.ReferenceIdeal Cert.ReferenceIdeal.Gen Cert.ReferenceIdeal.Read

/-- `x i = s i · Wi + bi` of batch row `b`. -/
theorem ref_x (x0 : Arr3 16384 9 32) (w : Weights) (b : Fin 16384) (i : Fin 9) (e : Fin 32) :
    val_main_v8 (F := Ideal) x0 w.Wi w.bi (ix3 b i e) = affine w.Wi w.bi (rowOf x0 b i) e := by
  rw [val_main_v8_apply, val_main_v5_apply, val_main_v7_apply, val_main_v6_apply]
  unfold affine rowOf
  refine congrArg₂ (· + ·) (Finset.sum_congr rfl fun k _ => congrArg₂ (· * ·) (congrArg x0 ?_) (congrArg w.Wi ?_))
    (congrArg w.bi ?_)
  · funext a; match a with
    | ⟨0, _⟩ => rfl
    | ⟨1, _⟩ => rfl
    | ⟨2, _⟩ => rfl
  · funext a; match a with
    | ⟨0, _⟩ => rfl
    | ⟨1, _⟩ => rfl
  · funext a; match a with
    | ⟨0, _⟩ => rfl

/-- `y j = s j · Wj + bj` of batch row `b`. -/
theorem ref_y (x0 : Arr3 16384 9 32) (w : Weights) (b : Fin 16384) (j : Fin 9) (e : Fin 32) :
    val_main_v13 (F := Ideal) x0 w.Wj w.bj (ix3 b j e) = affine w.Wj w.bj (rowOf x0 b j) e := by
  rw [val_main_v13_apply, val_main_v10_apply, val_main_v12_apply, val_main_v11_apply]
  unfold affine rowOf
  refine congrArg₂ (· + ·) (Finset.sum_congr rfl fun k _ => congrArg₂ (· * ·) (congrArg x0 ?_) (congrArg w.Wj ?_))
    (congrArg w.bj ?_)
  · funext a; match a with
    | ⟨0, _⟩ => rfl
    | ⟨1, _⟩ => rfl
    | ⟨2, _⟩ => rfl
  · funext a; match a with
    | ⟨0, _⟩ => rfl
    | ⟨1, _⟩ => rfl
  · funext a; match a with
    | ⟨0, _⟩ => rfl

/-- `r i j = relpos i j · Wr + br`. -/
theorem ref_r (w : Weights) (i j : Fin 9) (e : Fin 32) :
    val_main_v3 (F := Ideal) w.relpos w.Wr w.br (ix3 i j e) = affine w.Wr w.br (fun d => w.relpos (ix3 i j d)) e := by
  rw [val_main_v3_apply, val_main_v0_apply, val_main_v2_apply, val_main_v1_apply]
  unfold affine
  refine congrArg₂ (· + ·) (Finset.sum_congr rfl fun k _ => congrArg₂ (· * ·) (congrArg w.relpos ?_) (congrArg w.Wr ?_))
    (congrArg w.br ?_)
  · funext a; match a with
    | ⟨0, _⟩ => rfl
    | ⟨1, _⟩ => rfl
    | ⟨2, _⟩ => rfl
  · funext a; match a with
    | ⟨0, _⟩ => rfl
    | ⟨1, _⟩ => rfl
  · funext a; match a with
    | ⟨0, _⟩ => rfl

/-- The outer sum on `[16384, 9, 9, 32]` at `(b, i, j, e)`. -/
theorem ref_outer (x0 : Arr3 16384 9 32) (w : Weights) (b : Fin 16384) (i j : Fin 9) (e : Fin 32) :
    val_main_v19 (F := Ideal) x0 w.relpos w.Wi w.bi w.Wj w.bj w.Wr w.br (ix4 b i j e) = outer w (rowOf x0 b) i j e := by
  rw [val_main_v19_apply, val_main_v17_apply, val_main_v15_apply, val_main_v9_apply, val_main_v16_apply,
    val_main_v14_apply, val_main_v18_apply, val_main_v4_apply]
  unfold outer
  have e1 : idx_main_v9 (idx_main_v15 (ix4 b i j e)) = ix3 b i e := by
    funext a; match a with
    | ⟨0, _⟩ => rfl
    | ⟨1, _⟩ => rfl
    | ⟨2, _⟩ => rfl
  have e2 : idx_main_v14 (idx_main_v16 (ix4 b i j e)) = ix3 b j e := by
    funext a; match a with
    | ⟨0, _⟩ => rfl
    | ⟨1, _⟩ => rfl
    | ⟨2, _⟩ => rfl
  have e3 : idx_main_v4 (idx_main_v18 (ix4 b i j e)) = ix3 i j e := by
    funext a; match a with
    | ⟨0, _⟩ => rfl
    | ⟨1, _⟩ => rfl
    | ⟨2, _⟩ => rfl
  rw [e1, e2, e3, ref_x, ref_y, ref_r]
  rfl

/-- The hidden layer at `(b, i, j, c)`. -/
theorem ref_hidden (x0 : Arr3 16384 9 32) (w : Weights) (b : Fin 16384) (i j : Fin 9) (c : Fin 128) :
    val_main_v24 (F := Ideal) x0 w.relpos w.Wi w.bi w.Wj w.bj w.Wr w.br w.W1 w.b1 (ix4 b i j c)
      = hidden w (rowOf x0 b) i j c := by
  rw [val_main_v24_apply, val_main_v23_apply, val_main_v20_apply, val_main_v22_apply, val_main_v21_apply,
    val_main_call0_v0_apply, val_main_call0_cst_apply]
  unfold hidden affine
  refine congrArg₂ max (congrArg₂ (· + ·) (Finset.sum_congr rfl fun k _ => congrArg₂ (· * ·) ?_ (congrArg w.W1 ?_))
    (congrArg w.b1 ?_)) rfl
  · refine Eq.trans (congrArg _ ?_) (ref_outer x0 w b i j k)
    funext a; match a with
    | ⟨0, _⟩ => rfl
    | ⟨1, _⟩ => rfl
    | ⟨2, _⟩ => rfl
    | ⟨3, _⟩ => rfl
  · funext a; match a with
    | ⟨0, _⟩ => rfl
    | ⟨1, _⟩ => rfl
  · funext a; match a with
    | ⟨0, _⟩ => rfl

/-- The pair's output at `(b, i, j, o)`. -/
theorem ref_pairOut (x0 : Arr3 16384 9 32) (w : Weights) (b : Fin 16384) (i j : Fin 9) (o : Fin 2) :
    val_main_v28 (F := Ideal) x0 w.relpos w.Wi w.bi w.Wj w.bj w.Wr w.br w.W1 w.b1 w.W2 w.b2 (ix4 b i j o)
      = pairOut w (rowOf x0 b) i j o := by
  rw [val_main_v28_apply, val_main_v25_apply, val_main_v27_apply, val_main_v26_apply]
  unfold pairOut affine
  refine congrArg₂ (· + ·) (Finset.sum_congr rfl fun k _ => congrArg₂ (· * ·) ?_ (congrArg w.W2 ?_)) (congrArg w.b2 ?_)
  · refine Eq.trans (congrArg _ ?_) (ref_hidden x0 w b i j k)
    funext a; match a with
    | ⟨0, _⟩ => rfl
    | ⟨1, _⟩ => rfl
    | ⟨2, _⟩ => rfl
    | ⟨3, _⟩ => rfl
  · funext a; match a with
    | ⟨0, _⟩ => rfl
    | ⟨1, _⟩ => rfl
  · funext a; match a with
    | ⟨0, _⟩ => rfl

/-- The reference's result array is the array of row results. -/
theorem ref_result (x0 : Arr3 16384 9 32) (w : Weights) :
    val_main_v29 (F := Ideal) x0 w.relpos w.Wi w.bi w.Wj w.bj w.Wr w.br w.W1 w.b1 w.W2 w.b2 = result x0 w := by
  funext q
  obtain ⟨b, o, rfl⟩ : ∃ (b : Fin 16384) (o : Fin 2), q = ix2 b o := ⟨q 0, q 1, eq_ix2 q⟩
  rw [result_apply]
  unfold val_main_v29
  refine (Cert.LibReduceMid4.hostReduceAdd_mid2 reducesTo_S16384x9x9x2_S16384x2_d1_2 _ _ b o).trans ?_
  unfold rowOut
  refine Eq.trans (congrArg₂ (· + ·) (Ideal.ofBits_zero_f32) rfl) ?_
  rw [zero_add]
  exact Finset.sum_congr rfl fun i _ => Finset.sum_congr rfl fun j _ => ref_pairOut x0 w b i j o

end Cert.PairMlp

end
-- ==== Proof.lean ====
/-
  The certificate's claims.

  Both programs compute, for every batch row, the sum over the 81 ordered pairs of positions of a two-layer
  perceptron applied to the outer sum `x i + y j + r i j` (Proof/Spec.lean). The kernel does it block by block —
  128 batch rows per grid point, every re-layout read entry by entry (Proof/KernelLayout.lean, Proof/KernelRow.lean),
  the blocks assembled into the one array (Proof/KernelArray.lean) —; the reference does it on the whole batch with
  contractions and repeated axes (Proof/RefRow.lean). At the extended reals both end with the same array of row
  results: the only difference is the order in which finite sums are taken, so the inputs' finiteness is never used.
  The three frames are the generated ones (the reference's is its generated run with the result dropped), and the
  idealization rewrote nothing.
-/
import proofs.«151704_j7069516169782_1_alg».proof.Defs
import proofs.«151704_j7069516169782_1_alg».proof.Proof.Gen.Kernel
import proofs.«151704_j7069516169782_1_alg».proof.Proof.Gen.Kernel.Skeleton
import proofs.«151704_j7069516169782_1_alg».proof.Proof.Gen.Kernel.Launch
import proofs.«151704_j7069516169782_1_alg».proof.Proof.Gen.Kernel.Points
import proofs.«151704_j7069516169782_1_alg».proof.Proof.Gen.Kernel.Frame
import proofs.«151704_j7069516169782_1_alg».proof.Proof.Gen.KernelIdeal
import proofs.«151704_j7069516169782_1_alg».proof.Proof.Gen.KernelIdeal.Skeleton
import proofs.«151704_j7069516169782_1_alg».proof.Proof.Gen.KernelIdeal.Launch
import proofs.«151704_j7069516169782_1_alg».proof.Proof.Gen.KernelIdeal.Points
import proofs.«151704_j7069516169782_1_alg».proof.Proof.Gen.KernelIdeal.Frame
import proofs.«151704_j7069516169782_1_alg».proof.Proof.Gen.ReferenceIdeal
import proofs.«151704_j7069516169782_1_alg».proof.Proof.Gen.Pre_finite_inputs
import proofs.«151704_j7069516169782_1_alg».proof.Proof.Gen.KernelIdeal.Value
import proofs.«151704_j7069516169782_1_alg».proof.Proof.Gen.ReferenceIdeal.Run
import proofs.«151704_j7069516169782_1_alg».proof.Proof.Gen.ReferenceIdeal.Read
import proofs.«151704_j7069516169782_1_alg».proof.Proof.Spec
import proofs.«151704_j7069516169782_1_alg».proof.Proof.KernelArray
import proofs.«151704_j7069516169782_1_alg».proof.Proof.RefRow
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, the kernel's result array ends at the array of row results of its
    arguments, and the reference's at the same array of its own, equal, arguments. -/
theorem algebraic : Cert.algebraic_KernelIdeal_ReferenceIdeal := by
  intro m ρ m' ρ' _ hagree
  refine ⟨_, Cert.PairMlp.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v29_eq]
  refine (Cert.PairMlp.ref_result (m' ((c.tc : Thread Cert.ReferenceIdeal.nD Cert.ReferenceIdeal.τ).loc Cert.ReferenceIdeal.main_arg0))
    ⟨m' ((c.tc : Thread Cert.ReferenceIdeal.nD Cert.ReferenceIdeal.τ).loc Cert.ReferenceIdeal.main_arg1),
     m' ((c.tc : Thread Cert.ReferenceIdeal.nD Cert.ReferenceIdeal.τ).loc Cert.ReferenceIdeal.main_arg2),
     m' ((c.tc : Thread Cert.ReferenceIdeal.nD Cert.ReferenceIdeal.τ).loc Cert.ReferenceIdeal.main_arg3),
     m' ((c.tc : Thread Cert.ReferenceIdeal.nD Cert.ReferenceIdeal.τ).loc Cert.ReferenceIdeal.main_arg4),
     m' ((c.tc : Thread Cert.ReferenceIdeal.nD Cert.ReferenceIdeal.τ).loc Cert.ReferenceIdeal.main_arg5),
     m' ((c.tc : Thread Cert.ReferenceIdeal.nD Cert.ReferenceIdeal.τ).loc Cert.ReferenceIdeal.main_arg6),
     m' ((c.tc : Thread Cert.ReferenceIdeal.nD Cert.ReferenceIdeal.τ).loc Cert.ReferenceIdeal.main_arg7),
     m' ((c.tc : Thread Cert.ReferenceIdeal.nD Cert.ReferenceIdeal.τ).loc Cert.ReferenceIdeal.main_arg8),
     m' ((c.tc : Thread Cert.ReferenceIdeal.nD Cert.ReferenceIdeal.τ).loc Cert.ReferenceIdeal.main_arg9),
     m' ((c.tc : Thread Cert.ReferenceIdeal.nD Cert.ReferenceIdeal.τ).loc Cert.ReferenceIdeal.main_arg10),
     m' ((c.tc : Thread Cert.ReferenceIdeal.nD Cert.ReferenceIdeal.τ).loc Cert.ReferenceIdeal.main_arg11)⟩).trans ?_
  rw [a0, a1, a2, a3, a4, a5, a6, a7, a8, a9, a10, a11]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
